-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x16384 : Shape := ⟨3, ![8, 256, 16384]⟩
abbrev S85x256 : Shape := ⟨2, ![85, 256]⟩
abbrev S85 : Shape := ⟨1, ![85]⟩
abbrev S768x85 : Shape := ⟨2, ![768, 85]⟩
abbrev S768 : Shape := ⟨1, ![768]⟩
abbrev S256 : Shape := ⟨1, ![256]⟩
abbrev S_ : Shape := ⟨0, ![]⟩

class Facts : Prop where
  bcast_S_S8x256x16384 : S_.BroadcastsInDim S8x256x16384 (![] : Fin 0 → Fin S8x256x16384.rank)
  reducesTo_S8x256x16384_S_d0_1_2 : S8x256x16384.ReducesTo [0, 1, 2] S_
  h_S_ : 0 < S_.numel
  bcast_S_S85x256 : S_.BroadcastsInDim S85x256 (![] : Fin 0 → Fin S85x256.rank)
  reducesTo_S85x256_S_d0_1 : S85x256.ReducesTo [0, 1] S_
  bcast_S_S85 : S_.BroadcastsInDim S85 (![] : Fin 0 → Fin S85.rank)
  reducesTo_S85_S_d0 : S85.ReducesTo [0] S_
  bcast_S_S768x85 : S_.BroadcastsInDim S768x85 (![] : Fin 0 → Fin S768x85.rank)
  reducesTo_S768x85_S_d0_1 : S768x85.ReducesTo [0, 1] S_
  bcast_S_S768 : S_.BroadcastsInDim S768 (![] : Fin 0 → Fin S768.rank)
  reducesTo_S768_S_d0 : S768.ReducesTo [0] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S768 .f32) (main_arg8 : FVec F S256 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S85 .f32) (main_arg5 : FVec F S85 .f32) (main_arg6 : FVec F S768x85 .f32) (main_arg7 : FVec F S768 .f32) (main_arg8 : FVec F S256 .f32) (main_v13 : IVec S_ 1) (main_v16 : IVec S85 1) : IVec S_ 1 :=
  let main_c_5 : IVec S_ 1 := constantI S_ 1 1#1
  let main_v17 : IVec S_ 1 := (fun x v => Host.reduce IntOp.andi x v reducesTo_S85_S_d0 h_S_) main_v16 main_c_5
  let main_v18 : IVec S_ 1 := andi main_v13 main_v17
  let main_v19 : FVec F S85 .f32 := Host.absf main_arg4
  let main_cst_6 : FVec F S_ .f32 := constant S_ .f32 0x7F800000#32
  let main_v20 : FVec F S85 .f32 := broadcastInDim S85 ![] bcast_S_S85 main_cst_6
  let main_v21 : IVec S85 1 := cmpf .olt main_v19 main_v20
  let main_c_7 : IVec S_ 1 := constantI S_ 1 1#1
  let main_v22 : IVec S_ 1 := (fun x v => Host.reduce IntOp.andi x v reducesTo_S85_S_d0 h_S_) main_v21 main_c_7
  let main_v23 : IVec S_ 1 := andi main_v18 main_v22
  let main_v24 : FVec F S85 .f32 := Host.absf main_arg5
  let main_cst_8 : FVec F S_ .f32 := constant S_ .f32 0x7F800000#32
  let main_v25 : FVec F S85 .f32 := broadcastInDim S85 ![] bcast_S_S85 main_cst_8
  let main_v26 : IVec S85 1 := cmpf .olt main_v24 main_v25
  let main_c_9 : IVec S_ 1 := constantI S_ 1 1#1
  let main_v27 : IVec S_ 1 := (fun x v => Host.reduce IntOp.andi x v reducesTo_S85_S_d0 h_S_) main_v26 main_c_9
  let main_v28 : IVec S_ 1 := andi main_v23 main_v27
  let main_v29 : FVec F S768x85 .f32 := Host.absf main_arg6
  let main_cst_10 : FVec F S_ .f32 := constant S_ .f32 0x7F800000#32
  let main_v30 : FVec F S768x85 .f32 := broadcastInDim S768x85 ![] bcast_S_S768x85 main_cst_10
  let main_v31 : IVec S768x85 1 := cmpf .olt main_v29 main_v30
  let main_c_11 : IVec S_ 1 := constantI S_ 1 1#1
  let main_v32 : IVec S_ 1 := (fun x v => Host.reduce IntOp.andi x v reducesTo_S768x85_S_d0_1 h_S_) main_v31 main_c_11
  let main_v33 : IVec S_ 1 := andi main_v28 main_v32
  fn_part2 (F := F) main_arg7 main_arg8 main_v33

def fn {F : FTy → Type} [FloatOps F] (main_arg0 : FVec F S8x256x16384 .f32) (main_arg1 : FVec F S85x256 .f32) (main_arg2 : FVec F S85 .f32) (main_arg3 : FVec F S85 .f32) (main_arg4 : FVec F S85 .f32) (main_arg5 : FVec F S85 .f32) (main_arg6 : FVec F S768x85 .f32) (main_arg7 : FVec F S768 .f32) (main_arg8 : FVec F S256 .f32) : IVec S_ 1 :=
  let main_v0 : FVec F S8x256x16384 .f32 := Host.absf main_arg0
  let main_cst : FVec F S_ .f32 := constant S_ .f32 0x7F800000#32
  let main_v1 : FVec F S8x256x16384 .f32 := broadcastInDim S8x256x16384 ![] bcast_S_S8x256x16384 main_cst
  let main_v2 : IVec S8x256x16384 1 := cmpf .olt main_v0 main_v1
  let main_c : IVec S_ 1 := constantI S_ 1 1#1
  let main_v3 : IVec S_ 1 := (fun x v => Host.reduce IntOp.andi x v reducesTo_S8x256x16384_S_d0_1_2 h_S_) main_v2 main_c
  let main_v4 : FVec F S85x256 .f32 := Host.absf main_arg1
  let main_cst_0 : FVec F S_ .f32 := constant S_ .f32 0x7F800000#32
  let main_v5 : FVec F S85x256 .f32 := broadcastInDim S85x256 ![] bcast_S_S85x256 main_cst_0
  let main_v6 : IVec S85x256 1 := cmpf .olt main_v4 main_v5
  let main_c_1 : IVec S_ 1 := constantI S_ 1 1#1
  let main_v7 : IVec S_ 1 := (fun x v => Host.reduce IntOp.andi x v reducesTo_S85x256_S_d0_1 h_S_) main_v6 main_c_1
  let main_v8 : IVec S_ 1 := andi main_v3 main_v7
  let main_v9 : FVec F S85 .f32 := Host.absf main_arg2
  let main_cst_2 : FVec F S_ .f32 := constant S_ .f32 0x7F800000#32
  let main_v10 : FVec F S85 .f32 := broadcastInDim S85 ![] bcast_S_S85 main_cst_2
  let main_v11 : IVec S85 1 := cmpf .olt main_v9 main_v10
  let main_c_3 : IVec S_ 1 := constantI S_ 1 1#1
  let main_v12 : IVec S_ 1 := (fun x v => Host.reduce IntOp.andi x v reducesTo_S85_S_d0 h_S_) main_v11 main_c_3
  let main_v13 : IVec S_ 1 := andi main_v8 main_v12
  let main_v14 : FVec F S85 .f32 := Host.absf main_arg3
  let main_cst_4 : FVec F S_ .f32 := constant S_ .f32 0x7F800000#32
  let main_v15 : FVec F S85 .f32 := broadcastInDim S85 ![] bcast_S_S85 main_cst_4
  let main_v16 : IVec S85 1 := cmpf .olt main_v14 main_v15
  fn_part1 (F := F) main_arg4 main_arg5 main_arg6 main_arg7 main_arg8 main_v13 main_v16
-- ==== Kernel.lean ====
abbrev S8x256x16384 : Shape := ⟨3, ![8, 256, 16384]⟩
abbrev S85x256 : Shape := ⟨2, ![85, 256]⟩
abbrev S85 : Shape := ⟨1, ![85]⟩
abbrev S768x85 : Shape := ⟨2, ![768, 85]⟩
abbrev S768 : Shape := ⟨1, ![768]⟩
abbrev S256 : Shape := ⟨1, ![256]⟩
abbrev S8x256x1 : Shape := ⟨3, ![8, 256, 1]⟩
abbrev S1x64x16384 : Shape := ⟨3, ![1, 64, 16384]⟩
abbrev S1x64x1 : Shape := ⟨3, ![1, 64, 1]⟩
abbrev S64x16384 : Shape := ⟨2, ![64, 16384]⟩
abbrev S64 : Shape := ⟨1, ![64]⟩
abbrev S64x1 : Shape := ⟨2, ![64, 1]⟩
abbrev S8x256 : Shape := ⟨2, ![8, 256]⟩
abbrev S8x85 : Shape := ⟨2, ![8, 85]⟩
abbrev S1x85 : Shape := ⟨2, ![1, 85]⟩
abbrev S_ : Shape := ⟨0, ![]⟩
abbrev S8x768 : Shape := ⟨2, ![8, 768]⟩
abbrev S1x768 : Shape := ⟨2, ![1, 768]⟩
abbrev S8x256x3 : Shape := ⟨3, ![8, 256, 3]⟩
abbrev S256x1 : Shape := ⟨2, ![256, 1]⟩
abbrev S1x64x3 : Shape := ⟨3, ![1, 64, 3]⟩
abbrev S64x3 : Shape := ⟨2, ![64, 3]⟩

abbrev nBuf : Space → Nat
  | .hbm => 36
  | .vmem => 12
  | .smem => 0
  | _ => 0

abbrev bufTy : (tb : Table) → Fin (tcTables nBuf tb) → BufTy
  | .hbm, ⟨0, _⟩ => ⟨S8x256x16384, .f32⟩
  | .hbm, ⟨1, _⟩ => ⟨S85x256, .f32⟩
  | .hbm, ⟨2, _⟩ => ⟨S85, .f32⟩
  | .hbm, ⟨3, _⟩ => ⟨S85, .f32⟩
  | .hbm, ⟨4, _⟩ => ⟨S85, .f32⟩
  | .hbm, ⟨5, _⟩ => ⟨S85, .f32⟩
  | .hbm, ⟨6, _⟩ => ⟨S768x85, .f32⟩
  | .hbm, ⟨7, _⟩ => ⟨S768, .f32⟩
  | .hbm, ⟨8, _⟩ => ⟨S256, .f32⟩
  | .hbm, ⟨9, _⟩ => ⟨S8x256x1, .f32⟩
  | .hbm, ⟨10, _⟩ => ⟨S8x256, .f32⟩
  | .hbm, ⟨11, _⟩ => ⟨S8x85, .f32⟩
  | .hbm, ⟨12, _⟩ => ⟨S1x85, .f32⟩
  | .hbm, ⟨13, _⟩ => ⟨S8x85, .f32⟩
  | .hbm, ⟨14, _⟩ => ⟨S8x85, .f32⟩
  | .hbm, ⟨15, _⟩ => ⟨S_, .f32⟩
  | .hbm, ⟨16, _⟩ => ⟨S85, .f32⟩
  | .hbm, ⟨17, _⟩ => ⟨S85, .f32⟩
  | .hbm, ⟨18, _⟩ => ⟨S85, .f32⟩
  | .hbm, ⟨19, _⟩ => ⟨S85, .f32⟩
  | .hbm, ⟨20, _⟩ => ⟨S1x85, .f32⟩
  | .hbm, ⟨21, _⟩ => ⟨S8x85, .f32⟩
  | .hbm, ⟨22, _⟩ => ⟨S8x85, .f32⟩
  | .hbm, ⟨23, _⟩ => ⟨S1x85, .f32⟩
  | .hbm, ⟨24, _⟩ => ⟨S8x85, .f32⟩
  | .hbm, ⟨25, _⟩ => ⟨S8x85, .f32⟩
  | .hbm, ⟨26, _⟩ => ⟨S_, .f32⟩
  | .hbm, ⟨27, _⟩ => ⟨S8x85, .f32⟩
  | .hbm, ⟨28, _⟩ => ⟨S8x85, .f32⟩
  | .hbm, ⟨29, _⟩ => ⟨S8x768, .f32⟩
  | .hbm, ⟨30, _⟩ => ⟨S1x768, .f32⟩
  | .hbm, ⟨31, _⟩ => ⟨S8x768, .f32⟩
  | .hbm, ⟨32, _⟩ => ⟨S8x768, .f32⟩
  | .hbm, ⟨33, _⟩ => ⟨S8x256x3, .f32⟩
  | .hbm, ⟨34, _⟩ => ⟨S256x1, .f32⟩
  | .hbm, ⟨35, _⟩ => ⟨S8x256x16384, .f32⟩
  | .local _ .vmem, ⟨0, _⟩ => ⟨S1x64x16384, .f32⟩
  | .local _ .vmem, ⟨1, _⟩ => ⟨S1x64x16384, .f32⟩
  | .local _ .vmem, ⟨2, _⟩ => ⟨S1x64x1, .f32⟩
  | .local _ .vmem, ⟨3, _⟩ => ⟨S1x64x1, .f32⟩
  | .local _ .vmem, ⟨4, _⟩ => ⟨S1x64x16384, .f32⟩
  | .local _ .vmem, ⟨5, _⟩ => ⟨S1x64x16384, .f32⟩
  | .local _ .vmem, ⟨6, _⟩ => ⟨S1x64x3, .f32⟩
  | .local _ .vmem, ⟨7, _⟩ => ⟨S1x64x3, .f32⟩
  | .local _ .vmem, ⟨8, _⟩ => ⟨S64x1, .f32⟩
  | .local _ .vmem, ⟨9, _⟩ => ⟨S64x1, .f32⟩
  | .local _ .vmem, ⟨10, _⟩ => ⟨S1x64x16384, .f32⟩
  | .local _ .vmem, ⟨11, _⟩ => ⟨S1x64x16384, .f32⟩
  | _, _ => ⟨S8x256x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x64x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S64x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x64x16384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x64x16384_S1x64x16384_0_0_0 : ∀ a, (![0, 0, 0] : Fin 3 → Nat) a + S1x64x16384.size a ≤ S1x64x16384.size a
  h_S1x64x16384 : 0 < S1x64x16384.numel
  shapeCasts_S1x64x16384_S64x16384 : S1x64x16384.ShapeCasts S64x16384
  reduces_S64x16384_S64 : S64x16384.Reduces [1] S64
  shapeCasts_S64_S64x1 : S64.ShapeCasts S64x1
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  shapeCasts_S8x256x1_S8x256 : S8x256x1.ShapeCasts S8x256
  bcast_S85_S1x85_1 : S85.BroadcastsInDim S1x85 (![1] : Fin 1 → Fin S1x85.rank)
  bcast_S1x85_S8x85_0_1 : S1x85.BroadcastsInDim S8x85 (![0, 1] : Fin 2 → Fin S8x85.rank)
  bcast_S_S85 : S_.BroadcastsInDim S85 (![] : Fin 0 → Fin S85.rank)
  bcast_S_S8x85 : S_.BroadcastsInDim S8x85 (![] : Fin 0 → Fin S8x85.rank)
  bcast_S768_S1x768_1 : S768.BroadcastsInDim S1x768 (![1] : Fin 1 → Fin S1x768.rank)
  bcast_S1x768_S8x768_0_1 : S1x768.BroadcastsInDim S8x768 (![0, 1] : Fin 2 → Fin S8x768.rank)
  shapeCasts_S8x768_S8x256x3 : S8x768.ShapeCasts S8x256x3
  shapeCasts_S256_S256x1 : S256.ShapeCasts S256x1
  inb_S1x64x3_S1x64x3_0_0_0 : ∀ a, (![0, 0, 0] : Fin 3 → Nat) a + S1x64x3.size a ≤ S1x64x3.size a
  h_S1x64x3 : 0 < S1x64x3.numel
  shapeCasts_S1x64x3_S64x3 : S1x64x3.ShapeCasts S64x3
  inb_S64x1_S64x1_0_0 : ∀ a, (![0, 0] : Fin 2 → Nat) a + S64x1.size a ≤ S64x1.size a
  h_S64x1 : 0 < S64x1.numel
  shapeCasts_S64x1_S64x1 : S64x1.ShapeCasts S64x1
  rotates_S64x16384_d1 : S64x16384.Rotates 1 none
  iota_S64x16384_d1_w32 : S64x16384.Iotas .tc 32 [1]
  slices_S64x3_o0_0_S64x1 : S64x3.Slices ![0, 0] S64x1
  slices_S64x3_o0_1_S64x1 : S64x3.Slices ![0, 1] S64x1
  slices_S64x3_o0_2_S64x1 : S64x3.Slices ![0, 2] S64x1
  broadcasts_S64x1_S64x16384 : S64x1.Broadcasts S64x16384
  shapeCasts_S64x16384_S1x64x16384 : S64x16384.ShapeCasts S1x64x16384
  dot_S8x256_S85x256_S8x85_1_1_0_0_n_n_wf : DotDims.WF S8x256 S85x256 S8x85 [1] [1] [0] [0] [] []
  dot_S8x85_S768x85_S8x768_1_1_0_0_n_n_wf : DotDims.WF S8x85 S768x85 S8x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x16384.size a ≤ S8x256x16384.size a
  hwx0_0 : ∀ i : grid0.Coords, EltTy.bits .f32 = 32 ∨ (Rect.block (s := S8x256x16384) S1x64x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1.size a ≤ S8x256x1.size a
  hwx0_1 : ∀ i : grid0.Coords, EltTy.bits .f32 = 32 ∨ (Rect.block (s := S8x256x1) S1x64x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x16384.size a ≤ S8x256x16384.size a
  hwx1_0 : ∀ i : grid1.Coords, EltTy.bits .f32 = 32 ∨ (Rect.block (s := S8x256x16384) S1x64x16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x3.size a ≤ S8x256x3.size a
  hwx1_1 : ∀ i : grid1.Coords, EltTy.bits .f32 = 32 ∨ (Rect.block (s := S8x256x3) S1x64x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S256x1.size a
  hwx1_2 : ∀ i : grid1.Coords, EltTy.bits .f32 = 32 ∨ (Rect.block (s := S256x1) S64x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x16384.size a ≤ S8x256x16384.size a
  hwx1_3 : ∀ i : grid1.Coords, EltTy.bits .f32 = 32 ∨ (Rect.block (s := S8x256x16384) S1x64x16384.size (cc1_transform_3 i) (hinb1_3 i)).WholeWords (EltTy.packing .f32)

variable [Facts₀]

def dot_S8x256_S85x256_S8x85_1_1_0_0_n_n : DotDims S8x256 S85x256 S8x85 where
  lhsContracting := [1]
  rhsContracting := [1]
  lhsNonContracting := [0]
  rhsNonContracting := [0]
  lhsBatch := []
  rhsBatch := []
  wf := dot_S8x256_S85x256_S8x85_1_1_0_0_n_n_wf
def dot_S8x85_S768x85_S8x768_1_1_0_0_n_n : DotDims S8x85 S768x85 S8x768 where
  lhsContracting := [1]
  rhsContracting := [1]
  lhsNonContracting := [0]
  rhsNonContracting := [0]
  lhsBatch := []
  rhsBatch := []
  wf := dot_S8x85_S768x85_S8x768_1_1_0_0_n_n_wf

abbrev win0_0 : Pipeline.Window sig grid0 :=
  Pipeline.Window.ofSpec (Memref.whole main_arg0) S1x64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x64x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1x64x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S64x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x64x16384.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x256x16384 : Shape := ⟨3, ![8, 256, 16384]⟩
abbrev S85x256 : Shape := ⟨2, ![85, 256]⟩
abbrev S85 : Shape := ⟨1, ![85]⟩
abbrev S768x85 : Shape := ⟨2, ![768, 85]⟩
abbrev S768 : Shape := ⟨1, ![768]⟩
abbrev S256 : Shape := ⟨1, ![256]⟩
abbrev S_ : Shape := ⟨0, ![]⟩
abbrev S8x256 : Shape := ⟨2, ![8, 256]⟩
abbrev S8x85 : Shape := ⟨2, ![8, 85]⟩
abbrev S1x85 : Shape := ⟨2, ![1, 85]⟩
abbrev S8x768 : Shape := ⟨2, ![8, 768]⟩
abbrev S1x768 : Shape := ⟨2, ![1, 768]⟩
abbrev S8x256x3 : Shape := ⟨3, ![8, 256, 3]⟩
abbrev S8x256x16386 : Shape := ⟨3, ![8, 256, 16386]⟩
abbrev S8x256x1 : Shape := ⟨3, ![8, 256, 1]⟩
abbrev S1x256x1 : Shape := ⟨3, ![1, 256, 1]⟩

abbrev nBuf : Space → Nat
  | .hbm => 60
  | .vmem => 0
  | .smem => 0
  | _ => 0

abbrev bufTy : (tb : Table) → Fin (tcTables nBuf tb) → BufTy
  | .hbm, ⟨0, _⟩ => ⟨S8x256x16384, .f32⟩
  | .hbm, ⟨1, _⟩ => ⟨S85x256, .f32⟩
  | .hbm, ⟨2, _⟩ => ⟨S85, .f32⟩
  | .hbm, ⟨3, _⟩ => ⟨S85, .f32⟩
  | .hbm, ⟨4, _⟩ => ⟨S85, .f32⟩
  | .hbm, ⟨5, _⟩ => ⟨S85, .f32⟩
  | .hbm, ⟨6, _⟩ => ⟨S768x85, .f32⟩
  | .hbm, ⟨7, _⟩ => ⟨S768, .f32⟩
  | .hbm, ⟨8, _⟩ => ⟨S256, .f32⟩
  | .hbm, ⟨9, _⟩ => ⟨S_, .f32⟩
  | .hbm, ⟨10, _⟩ => ⟨S8x256, .f32⟩
  | .hbm, ⟨11, _⟩ => ⟨S_, .f32⟩
  | .hbm, ⟨12, _⟩ => ⟨S8x256, .f32⟩
  | .hbm, ⟨13, _⟩ => ⟨S8x256, .f32⟩
  | .hbm, ⟨14, _⟩ => ⟨S8x85, .f32⟩
  | .hbm, ⟨15, _⟩ => ⟨S1x85, .f32⟩
  | .hbm, ⟨16, _⟩ => ⟨S8x85, .f32⟩
  | .hbm, ⟨17, _⟩ => ⟨S8x85, .f32⟩
  | .hbm, ⟨18, _⟩ => ⟨S_, .f32⟩
  | .hbm, ⟨19, _⟩ => ⟨S85, .f32⟩
  | .hbm, ⟨20, _⟩ => ⟨S85, .f32⟩
  | .hbm, ⟨21, _⟩ => ⟨S85, .f32⟩
  | .hbm, ⟨22, _⟩ => ⟨S85, .f32⟩
  | .hbm, ⟨23, _⟩ => ⟨S1x85, .f32⟩
  | .hbm, ⟨24, _⟩ => ⟨S8x85, .f32⟩
  | .hbm, ⟨25, _⟩ => ⟨S8x85, .f32⟩
  | .hbm, ⟨26, _⟩ => ⟨S1x85, .f32⟩
  | .hbm, ⟨27, _⟩ => ⟨S8x85, .f32⟩
  | .hbm, ⟨28, _⟩ => ⟨S8x85, .f32⟩
  | .hbm, ⟨29, _⟩ => ⟨S_, .f32⟩
  | .hbm, ⟨30, _⟩ => ⟨S8x85, .f32⟩
  | .hbm, ⟨31, _⟩ => ⟨S8x85, .f32⟩
  | .hbm, ⟨32, _⟩ => ⟨S8x768, .f32⟩
  | .hbm, ⟨33, _⟩ => ⟨S1x768, .f32⟩
  | .hbm, ⟨34, _⟩ => ⟨S8x768, .f32⟩
  | .hbm, ⟨35, _⟩ => ⟨S8x768, .f32⟩
  | .hbm, ⟨36, _⟩ => ⟨S8x256x3, .f32⟩
  | .hbm, ⟨37, _⟩ => ⟨S_, .i32⟩
  | .hbm, ⟨38, _⟩ => ⟨S_, .f32⟩
  | .hbm, ⟨39, _⟩ => ⟨S8x256x16386, .f32⟩
  | .hbm, ⟨40, _⟩ => ⟨S_, .f32⟩
  | .hbm, ⟨41, _⟩ => ⟨S8x256x16384, .f32⟩
  | .hbm, ⟨42, _⟩ => ⟨S8x256x1, .f32⟩
  | .hbm, ⟨43, _⟩ => ⟨S8x256x16384, .f32⟩
  | .hbm, ⟨44, _⟩ => ⟨S8x256x16384, .f32⟩
  | .hbm, ⟨45, _⟩ => ⟨S8x256x16384, .f32⟩
  | .hbm, ⟨46, _⟩ => ⟨S8x256x16384, .f32⟩
  | .hbm, ⟨47, _⟩ => ⟨S8x256x1, .f32⟩
  | .hbm, ⟨48, _⟩ => ⟨S8x256x16384, .f32⟩
  | .hbm, ⟨49, _⟩ => ⟨S8x256x16384, .f32⟩
  | .hbm, ⟨50, _⟩ => ⟨S8x256x16384, .f32⟩
  | .hbm, ⟨51, _⟩ => ⟨S8x256x16384, .f32⟩
  | .hbm, ⟨52, _⟩ => ⟨S8x256x1, .f32⟩
  | .hbm, ⟨53, _⟩ => ⟨S8x256x16384, .f32⟩
  | .hbm, ⟨54, _⟩ => ⟨S8x256x16384, .f32⟩
  | .hbm, ⟨55, _⟩ => ⟨S8x256x16384, .f32⟩
  | .hbm, ⟨56, _⟩ => ⟨S8x256x16384, .f32⟩
  | .hbm, ⟨57, _⟩ => ⟨S1x256x1, .f32⟩
  | .hbm, ⟨58, _⟩ => ⟨S8x256x16384, .f32⟩
  | .hbm, ⟨59, _⟩ => ⟨S8x256x16384, .f32⟩
  | _, _ => ⟨S8x256x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_cst : Ref sig .tc := ⟨.hbm, 29, rfl⟩
abbrev main_call0_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_call1_v0 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]

class Facts₀ : Prop where
  reducesTo_S8x256x16384_S8x256_d2 : S8x256x16384.ReducesTo [2] S8x256
  h_S_ : 0 < S_.numel
  bcast_S_S8x256 : S_.BroadcastsInDim S8x256 (![] : Fin 0 → Fin S8x256.rank)
  bcast_S85_S1x85_1 : S85.BroadcastsInDim S1x85 (![1] : Fin 1 → Fin S1x85.rank)
  bcast_S1x85_S8x85_0_1 : S1x85.BroadcastsInDim S8x85 (![0, 1] : Fin 2 → Fin S8x85.rank)
  bcast_S_S85 : S_.BroadcastsInDim S85 (![] : Fin 0 → Fin S85.rank)
  bcast_S_S8x85 : S_.BroadcastsInDim S8x85 (![] : Fin 0 → Fin S8x85.rank)
  bcast_S768_S1x768_1 : S768.BroadcastsInDim S1x768 (![1] : Fin 1 → Fin S1x768.rank)
  bcast_S1x768_S8x768_0_1 : S1x768.BroadcastsInDim S8x768 (![0, 1] : Fin 2 → Fin S8x768.rank)
  shapeCasts_S8x768_S8x256x3 : S8x768.ShapeCasts S8x256x3
  pads_S8x256x16384_S8x256x16386_000_000_110 : S8x256x16384.Pads (![0, 0, 1] : Fin 3 → Nat) ![0, 0, 1] ![0, 0, 0] S8x256x16386
  bcast_S_S8x256x16384 : S_.BroadcastsInDim S8x256x16384 (![] : Fin 0 → Fin S8x256x16384.rank)
  slices_S8x256x3_S8x256x1_0_0_0 : S8x256x3.Slices ![0, 0, 0] S8x256x1
  slices_S8x256x16386_S8x256x16384_0_0_0 : S8x256x16386.Slices ![0, 0, 0] S8x256x16384
  bcast_S8x256x1_S8x256x16384_0_1_2 : S8x256x1.BroadcastsInDim S8x256x16384 (![0, 1, 2] : Fin 3 → Fin S8x256x16384.rank)
  slices_S8x256x3_S8x256x1_0_0_1 : S8x256x3.Slices ![0, 0, 1] S8x256x1
  slices_S8x256x16386_S8x256x16384_0_0_1 : S8x256x16386.Slices ![0, 0, 1] S8x256x16384
  slices_S8x256x3_S8x256x1_0_0_2 : S8x256x3.Slices ![0, 0, 2] S8x256x1
  slices_S8x256x16386_S8x256x16384_0_0_2 : S8x256x16386.Slices ![0, 0, 2] S8x256x16384
  bcast_S256_S1x256x1_1 : S256.BroadcastsInDim S1x256x1 (![1] : Fin 1 → Fin S1x256x1.rank)
  bcast_S1x256x1_S8x256x16384_0_1_2 : S1x256x1.BroadcastsInDim S8x256x16384 (![0, 1, 2] : Fin 3 → Fin S8x256x16384.rank)
  dot_S8x256_S85x256_S8x85_1_1_0_0_n_n_wf : DotDims.WF S8x256 S85x256 S8x85 [1] [1] [0] [0] [] []
  dot_S8x85_S768x85_S8x768_1_1_0_0_n_n_wf : DotDims.WF S8x85 S768x85 S8x768 [1] [1] [0] [0] [] []

variable [Facts₀]

def dot_S8x256_S85x256_S8x85_1_1_0_0_n_n : DotDims S8x256 S85x256 S8x85 where
  lhsContracting := [1]
  rhsContracting := [1]
  lhsNonContracting := [0]
  rhsNonContracting := [0]
  lhsBatch := []
  rhsBatch := []
  wf := dot_S8x256_S85x256_S8x85_1_1_0_0_n_n_wf
def dot_S8x85_S768x85_S8x768_1_1_0_0_n_n : DotDims S8x85 S768x85 S8x768 where
  lhsContracting := [1]
  rhsContracting := [1]
  lhsNonContracting := [0]
  rhsNonContracting := [0]
  lhsBatch := []
  rhsBatch := []
  wf := dot_S8x85_S768x85_S8x768_1_1_0_0_n_n_wf

class Facts : Prop extends Facts₀ where

variable [Facts]
-- ==== Proof.ConvSpec.lean ====
/-
  What the program computes, stated once on the extended reals, index by index.

  The input is an array X of 8 samples, 256 channels and 16384 positions. Two functions of it:

  * `pooled X` — per sample and channel, the sum of the 16384 positions divided by the constant 16384;
  * `conv X W B` — a three-tap filter along the positions whose taps W (b, c, ·) depend on the sample and
    the channel, plus a per-channel bias B c:
        W (b, c, 0) · X (b, c, l − 1) + W (b, c, 1) · X (b, c, l) + W (b, c, 2) · X (b, c, l + 1) + B c,
    where the neighbour outside the array (before position 0, after position 16383) counts as 0.

  The neighbours are named with wrap-around (`prevLane`, `nextLane`) so that the term is total; the two
  `if`s cut the wrapped entries off, so the wrap never shows.
-/
import Idealize.ShloMosaic.Lib.ValueIdx
import Idealize.ShloMosaic.PureOps.Ideal.Laws

noncomputable section

namespace Cert.DynConv

open Idealize.ShloMosaic Idealize.ShloMosaic.ValueIdx

/-- The input and the result: 8 samples × 256 channels × 16384 positions. -/
abbrev SX : Shape := ⟨3, ![8, 256, 16384]⟩
/-- The taps: 8 samples × 256 channels × 3. -/
abbrev SW : Shape := ⟨3, ![8, 256, 3]⟩
/-- The bias: one entry per channel. -/
abbrev SB : Shape := ⟨1, ![256]⟩
/-- The bias laid out as a column. -/
abbrev SBcol : Shape := ⟨2, ![256, 1]⟩
/-- The pooled means, with a trailing unit axis. -/
abbrev SP : Shape := ⟨3, ![8, 256, 1]⟩
/-- The pooled means as a matrix. -/
abbrev SPm : Shape := ⟨2, ![8, 256]⟩

/-- The position before `l`, around the end. -/
def prevLane (l : Fin 16384) : Fin 16384 := ⟨(l.val + 16383) % 16384, Nat.mod_lt _ (by decide)⟩
/-- The position after `l`, around the end. -/
def nextLane (l : Fin 16384) : Fin 16384 := ⟨(l.val + 1) % 16384, Nat.mod_lt _ (by decide)⟩

theorem prevLane_val (l : Fin 16384) : (prevLane l).val = (l.val + 16383) % 16384 := rfl
theorem nextLane_val (l : Fin 16384) : (nextLane l).val = (l.val + 1) % 16384 := rfl

/-- The left neighbour's value: 0 at the first position. -/
def leftOf (X : SX.Idx → EReal) (b : Fin 8) (c : Fin 256) (l : Fin 16384) : EReal :=
  if l.val = 0 then 0 else X (ix3 b c (prevLane l))
/-- The right neighbour's value: 0 at the last position. -/
def rightOf (X : SX.Idx → EReal) (b : Fin 8) (c : Fin 256) (l : Fin 16384) : EReal :=
  if l.val = 16383 then 0 else X (ix3 b c (nextLane l))

/-- The three-tap filter with per-sample, per-channel taps and a per-channel bias, at (b, c, l). -/
def convAt (X : SX.Idx → EReal) (W : SW.Idx → EReal) (B : SB.Idx → EReal) (b : Fin 8) (c : Fin 256) (l : Fin 16384) : EReal :=
  W (ix3 b c 0) * leftOf X b c l + W (ix3 b c 1) * X (ix3 b c l) + W (ix3 b c 2) * rightOf X b c l + B (ix1 c)

/-- The filter as an array. -/
def conv (X : SX.Idx → EReal) (W : SW.Idx → EReal) (B : SB.Idx → EReal) : SX.Idx → EReal :=
  fun i => convAt X W B (i 0) (i 1) (i 2)

theorem conv_ix3 (X : SX.Idx → EReal) (W : SW.Idx → EReal) (B : SB.Idx → EReal) (b : Fin 8) (c : Fin 256) (l : Fin 16384) :
    conv X W B (ix3 b c l) = convAt X W B b c l := rfl

/-- The mean over the positions, per sample and channel: the sum divided by the f32 constant 16384. -/
def pooledAt (X : SX.Idx → EReal) (b : Fin 8) (c : Fin 256) : EReal :=
  Ideal.div (∑ l : Fin 16384, X (ix3 b c l)) (Ideal.ofBits .f32 0x46800000#32)

/-- The means as a matrix [8, 256]. -/
def pooled (X : SX.Idx → EReal) : SPm.Idx → EReal := fun i => pooledAt X (i 0) (i 1)

theorem pooled_ix2 (X : SX.Idx → EReal) (b : Fin 8) (c : Fin 256) : pooled X (ix2 b c) = pooledAt X b c := rfl

end Cert.DynConv

end
-- ==== Proof.RefRead.lean ====
/-
  The reference program's result, read index by index: it is the three-tap filter of ConvSpec.lean, with
  the taps the reference's own small network computes from the pooled means.

  The reference pads the positions with one zero on either side and adds three shifted copies,
  starting from a zero array:
      ((0 + w₀ · pad (l)) + w₁ · pad (l + 1)) + w₂ · pad (l + 2)) + bias.
  pad (l + 1) is the entry itself; pad (l) is the left neighbour, the padding zero at the first
  position; pad (l + 2) is the right neighbour, the padding zero at the last position. The leading
  `0 +` drops (0 + a = a for every extended real).
-/
import proofs.«172648_j64656437674380_2_alg».proof.Proof.Gen.ReferenceIdeal.Read
import proofs.«172648_j64656437674380_2_alg».proof.Proof.ConvSpec
import Idealize.ShloMosaic.Lib.KernelVsHost

noncomputable section

namespace Cert.DynConv.Ref

open Cert.ReferenceIdeal Cert.ReferenceIdeal.Gen Cert.ReferenceIdeal.Read
open Idealize.ShloMosaic Idealize.ShloMosaic.ValueIdx Cert.DynConv

/-- The padding value: the integer 0 converted to a float is 0. -/
theorem padValue : val_main_call1_v0 (F := Ideal) (Shape.Idx.first h_S_) = (0 : EReal) :=
  sitofp_zero (φ := .f32)

/-- The padded array one position past an entry of the input holds that entry. -/
theorem padded_inside (x0 : (⟨S8x256x16384, .f32⟩ : BufTy).Contents (Elt Ideal)) (b : Fin 8) (c : Fin 256)
    (j : Fin 16386) (l : Fin 16384) (h : j.val = l.val + 1) :
    val_main_v23 (F := Ideal) x0 (ix3 b c j) = x0 (ix3 b c l) := by
  unfold val_main_v23
  exact pad_apply_of_inside ![0, 0, 1] ![0, 0, 1] ![0, 0, 0] x0 _ pads_S8x256x16384_S8x256x16386_000_000_110 h_S_
    (ix3 b c j) (ix3 b c l) (fun a => match a with
      | ⟨0, _⟩ => by show b.val = 0 + b.val * (0 + 1); omega
      | ⟨1, _⟩ => by show c.val = 0 + c.val * (0 + 1); omega
      | ⟨2, _⟩ => by show j.val = 1 + l.val * (0 + 1); omega)

/-- The padded array at its first and at its last position holds the padding zero. -/
theorem padded_outside (x0 : (⟨S8x256x16384, .f32⟩ : BufTy).Contents (Elt Ideal)) (b : Fin 8) (c : Fin 256)
    (j : Fin 16386) (h : j.val = 0 ∨ j.val = 16385) :
    val_main_v23 (F := Ideal) x0 (ix3 b c j) = (0 : EReal) := by
  unfold val_main_v23
  refine (pad_apply_of_not_inside ![0, 0, 1] ![0, 0, 1] ![0, 0, 0] x0 _ pads_S8x256x16384_S8x256x16386_000_000_110 h_S_
    (ix3 b c j) (2 : Fin 3) ?_).trans padValue
  show ¬(1 ≤ j.val ∧ (j.val - 1) % (0 + 1) = 0 ∧ (j.val - 1) / (0 + 1) < 16384)
  omega

/-- The left tap reads the padded array at the position itself: the left neighbour, or the padding zero. -/
theorem padded_left (x0 : (⟨S8x256x16384, .f32⟩ : BufTy).Contents (Elt Ideal)) (b : Fin 8) (c : Fin 256) (l : Fin 16384) :
    val_main_v23 (F := Ideal) x0 (idx_main_v26 (ix3 b c l)) = leftOf x0 b c l := by
  have e : idx_main_v26 (ix3 b c l) = ix3 b c (⟨l.val, by have := l.isLt; omega⟩ : Fin 16386) :=
    funext fun a => Fin.ext (by match a with | ⟨0, _⟩ => rfl | ⟨1, _⟩ => rfl | ⟨2, _⟩ => rfl)
  rw [e]
  unfold leftOf
  by_cases h0 : l.val = 0
  · rw [if_pos h0]
    exact padded_outside x0 b c _ (Or.inl h0)
  · rw [if_neg h0]
    exact padded_inside x0 b c _ (prevLane l) (by rw [prevLane_val]; show l.val = _; have := l.isLt; omega)

/-- The middle tap reads the padded array one position on: the entry itself. -/
theorem padded_mid (x0 : (⟨S8x256x16384, .f32⟩ : BufTy).Contents (Elt Ideal)) (b : Fin 8) (c : Fin 256) (l : Fin 16384) :
    val_main_v23 (F := Ideal) x0 (idx_main_v31 (ix3 b c l)) = x0 (ix3 b c l) := by
  have e : idx_main_v31 (ix3 b c l) = ix3 b c (⟨1 + l.val, by have := l.isLt; omega⟩ : Fin 16386) :=
    funext fun a => Fin.ext (by match a with | ⟨0, _⟩ => rfl | ⟨1, _⟩ => rfl | ⟨2, _⟩ => rfl)
  rw [e]
  exact padded_inside x0 b c _ l (by show 1 + l.val = l.val + 1; omega)

/-- The right tap reads the padded array two positions on: the right neighbour, or the padding zero. -/
theorem padded_right (x0 : (⟨S8x256x16384, .f32⟩ : BufTy).Contents (Elt Ideal)) (b : Fin 8) (c : Fin 256) (l : Fin 16384) :
    val_main_v23 (F := Ideal) x0 (idx_main_v36 (ix3 b c l)) = rightOf x0 b c l := by
  have e : idx_main_v36 (ix3 b c l) = ix3 b c (⟨2 + l.val, by have := l.isLt; omega⟩ : Fin 16386) :=
    funext fun a => Fin.ext (by match a with | ⟨0, _⟩ => rfl | ⟨1, _⟩ => rfl | ⟨2, _⟩ => rfl)
  rw [e]
  unfold rightOf
  by_cases h0 : l.val = 16383
  · rw [if_pos h0]
    exact padded_outside x0 b c _ (Or.inr (by show 2 + l.val = 16385; omega))
  · rw [if_neg h0]
    exact padded_inside x0 b c _ (nextLane l) (by rw [nextLane_val]; show 2 + l.val = _; have := l.isLt; omega)

/-- THE REFERENCE IS THE FILTER: its result array, as a function of the nine arguments, is `conv` of the input,
    of the taps its own network computes (`val_main_v22`) and of the bias. -/
theorem result_eq_conv (x0 : (⟨S8x256x16384, .f32⟩ : BufTy).Contents (Elt Ideal)) (x1 : (⟨S85x256, .f32⟩ : BufTy).Contents (Elt Ideal))
    (x2 x3 x4 x5 : (⟨S85, .f32⟩ : BufTy).Contents (Elt Ideal)) (x6 : (⟨S768x85, .f32⟩ : BufTy).Contents (Elt Ideal))
    (x7 : (⟨S768, .f32⟩ : BufTy).Contents (Elt Ideal)) (x8 : (⟨S256, .f32⟩ : BufTy).Contents (Elt Ideal)) :
    val_main_v42 (F := Ideal) x0 x1 x2 x3 x4 x5 x6 x7 x8
      = conv x0 (val_main_v22 (F := Ideal) x0 x1 x2 x3 x4 x5 x6 x7) x8 := by
  funext i
  obtain ⟨b, c, l, rfl⟩ : ∃ (b : Fin 8) (c : Fin 256) (l : Fin 16384), i = ix3 b c l := ⟨i 0, i 1, i 2, eq_ix3 i⟩
  have e0 : idx_main_v25 (idx_main_v27 (ix3 b c l)) = ix3 b c (0 : Fin 3) :=
    funext fun a => Fin.ext (by match a with | ⟨0, _⟩ => rfl | ⟨1, _⟩ => rfl | ⟨2, _⟩ => rfl)
  have e1 : idx_main_v30 (idx_main_v32 (ix3 b c l)) = ix3 b c (1 : Fin 3) :=
    funext fun a => Fin.ext (by match a with | ⟨0, _⟩ => rfl | ⟨1, _⟩ => rfl | ⟨2, _⟩ => rfl)
  have e2 : idx_main_v35 (idx_main_v37 (ix3 b c l)) = ix3 b c (2 : Fin 3) :=
    funext fun a => Fin.ext (by match a with | ⟨0, _⟩ => rfl | ⟨1, _⟩ => rfl | ⟨2, _⟩ => rfl)
  have e8 : idx_main_v40 (idx_main_v41 (ix3 b c l)) = ix1 c :=
    funext fun a => Fin.ext (by match a with | ⟨0, _⟩ => rfl)
  rw [val_main_v42_apply, val_main_v41_apply, val_main_v40_apply, val_main_v39_apply, val_main_v38_apply,
    val_main_v37_apply, val_main_v36_apply, val_main_v35_apply, val_main_v34_apply, val_main_v33_apply,
    val_main_v32_apply, val_main_v31_apply, val_main_v30_apply, val_main_v29_apply, val_main_v28_apply,
    val_main_v27_apply, val_main_v26_apply, val_main_v25_apply, val_main_v24_apply, val_main_cst_2_apply,
    e0, e1, e2, e8, padded_left, padded_mid, padded_right, conv_ix3]
  unfold convAt
  simp only [Ideal.addf_def, Ideal.mulf_def, Ideal.ofBits_def, Ideal.ofBits_zero_f32, zero_add]

end Cert.DynConv.Ref

end
-- ==== Proof.KernelRun.lean ====
/-
  The whole program's run with its RESULT named.

  The program is two kernel launches with a stretch of host operations between them. The generated frame
  module follows the buffers' contents through the five segments (`W0` at launch … `W5` at the return)
  and reads the argument arrays off the last one. Here the same run is read once more at the result
  buffer: every weakly fair execution terminates, the arguments end as launched, and the result buffer
  holds what the last segment's contents `W5` say — the second launch's output array after its
  write-backs.
-/
import proofs.«172648_j64656437674380_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the
    last segment's contents and the nine argument arrays end as launched. -/
theorem run_result : θ_run defs (onTc (τ := τ) (main (F := F))) ⟨m, fun _ => 0, ρ⟩ (fun r => ∀ c : Dev nD,
      r.2.mem ((c.tc : Thread nD τ).loc main_v23) = W5 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v23 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

/-- The result buffer's last contents are the second launch's output array after every write-back. -/
theorem result_arr (c : Dev nD) :
    W5 m ρ c (Proc.devRef .tc main_v23) = (dat1 (V4 m ρ) c).arrAt 3 cfg1.N :=
  W5_arr m ρ c 3

end Cert.KernelIdeal.RunValue

end
-- ==== Proof.ConvValue.lean ====
/-
  The second launch: what it leaves in its output array.

  Each grid point (b, d) loads the block of the input at sample b, channels 64·d … 64·d + 63, all 16384
  positions; the 64 × 3 taps of those channels; and the 64 biases as a column. It rotates the block by
  one position either way along the positions, replaces the entry the rotation brings around the end by
  0 (position 0 of the left copy, position 16383 of the right one), and stores
      w₀ · left + w₁ · x + w₂ · right + bias.
  Because a block holds ALL positions of its rows, the rotation's neighbour is the array's neighbour, so
  the stored block is the block of the three-tap filter `conv` of ConvSpec.lean, and the 8 × 4 blocks tile
  the [8, 256, 16384] output.

  Stated for ANY contents `V` the launch is entered with: it reads `V`'s input, taps and bias column.
-/
import proofs.«172648_j64656437674380_2_alg».proof.Proof.Gen.KernelIdeal.Frame
import proofs.«172648_j64656437674380_2_alg».proof.Proof.ConvSpec
import Idealize.ShloMosaic.Lib.Pipeline.Value
import Idealize.ShloMosaic.Lib.ValueLayout
import Idealize.ShloMosaic.Lib.KernelVsHost
import Idealize.ShloMosaic.PureOps.Ideal.Laws

noncomputable section

namespace Cert.KernelIdeal.ConvValue

open Cert.KernelIdeal Cert.KernelIdeal.Gen Idealize.ShloMosaic Idealize.ShloMosaic.TcCoe Idealize.SL.Sem
open Idealize.ShloMosaic.Pipeline (Dat)
open Idealize.ShloMosaic.ValueIdx Cert.DynConv

/-! ## The body's pieces at an index -/

/-- A choice on "position l is position k" (compared as 32-bit words, both below 2³²) is the choice on l = k. -/
theorem select_lane {α : Type} (l k : Nat) (hl : l < 2 ^ 32) (hk : k < 2 ^ 32) (a b : α) :
    Scalar.select (IntOp.cmpi .eq (BitVec.ofNat 32 l) (BitVec.ofNat 32 k)) a b = if l = k then a else b := by
  show (if BitVec.ofBool (BitVec.ofNat 32 l == BitVec.ofNat 32 k) = 1 then a else b) = _
  by_cases h : l = k
  · subst h
    rw [if_pos rfl, beq_self_eq_true]
    exact if_pos rfl
  · have hne : BitVec.ofNat 32 l ≠ BitVec.ofNat 32 k := fun e => h (by
      have := congrArg BitVec.toNat e
      rw [BitVec.toNat_ofNat, BitVec.toNat_ofNat, Nat.mod_eq_of_lt hl, Nat.mod_eq_of_lt hk] at this
      exact this)
    rw [if_neg h, beq_eq_false_iff_ne.mpr hne]
    exact if_neg (by decide)

/-- A column [64, 1] broadcast along the positions reads, at (r, l), the column at (r, 0). -/
theorem column_broadcast_apply {α : Type} (v : S64x1.Idx → α) (h : S64x1.Broadcasts S64x16384) (r : Fin 64) (l : Fin 16384) :
    broadcastTo S64x16384 v h (ix2 r l) = v (ix2 r (0 : Fin 1)) :=
  broadcastTo_apply v h _ _ (fun a => match a with
    | ⟨0, _⟩ => by show r.val = if (64 : Nat) = 1 then 0 else r.val; rw [if_neg (by decide)]
    | ⟨1, _⟩ => by show 0 = if (1 : Nat) = 1 then 0 else l.val; rw [if_pos rfl])

/-- Column k of the taps [64, 3], cut out as a column [64, 1], reads at (r, 0) the taps at (r, k). -/
theorem tap_column_apply {α : Type} (v : S64x3.Idx → α) (k : Fin 3) (h : S64x3.Slices ![0, k.val] S64x1) (r : Fin 64) :
    extractStridedSlice S64x1 ![0, k.val] v h (ix2 r (0 : Fin 1)) = v (ix2 r k) :=
  extractStridedSlice_apply ![0, k.val] v h _ _ (fun a => match a with
    | ⟨0, _⟩ => by show r.val = 0 + r.val; omega
    | ⟨1, _⟩ => by show k.val = k.val + 0; omega)

/-- The block rotated by one position: at (r, l) it holds the block's (r, l − 1), around the end. -/
theorem rotate_one_apply (x : S64x16384.Idx → EReal) (h : S64x16384.Rotates (1 : Fin 2) none) (r : Fin 64) (l : Fin 16384) :
    dynamicRotate (1 : Fin 2) 1#32 none x h (ix2 r l) = x (ix2 r (prevLane l)) :=
  dynamicRotate_apply (1 : Fin 2) 1#32 x h _ _ (fun b => match b with
    | ⟨0, _⟩ => by show r.val = if (0 : Fin 2) = 1 then _ else r.val; rw [if_neg (by decide)]
    | ⟨1, _⟩ => by
        show (prevLane l).val = if (1 : Fin 2) = 1 then (l.val + 16384 - (1#32 : BitVec 32).toNat % 16384) % 16384 else l.val
        rw [if_pos rfl, prevLane_val]
        show (l.val + 16383) % 16384 = (l.val + 16384 - 1 % 16384) % 16384
        omega)

/-- The block rotated by 16383 positions: at (r, l) it holds the block's (r, l + 1), around the end. -/
theorem rotate_back_apply (x : S64x16384.Idx → EReal) (h : S64x16384.Rotates (1 : Fin 2) none) (r : Fin 64) (l : Fin 16384) :
    dynamicRotate (1 : Fin 2) 16383#32 none x h (ix2 r l) = x (ix2 r (nextLane l)) :=
  dynamicRotate_apply (1 : Fin 2) 16383#32 x h _ _ (fun b => match b with
    | ⟨0, _⟩ => by show r.val = if (0 : Fin 2) = 1 then _ else r.val; rw [if_neg (by decide)]
    | ⟨1, _⟩ => by
        show (nextLane l).val = if (1 : Fin 2) = 1 then (l.val + 16384 - (16383#32 : BitVec 32).toNat % 16384) % 16384 else l.val
        rw [if_pos rfl, nextLane_val]
        show (l.val + 1) % 16384 = (l.val + 16384 - 16383 % 16384) % 16384
        omega)

/-- A scalar float literal, read on the extended reals, is the literal's value. -/
theorem scalar_literal (b : BitVec 32) : Scalar.ofBits (F := Ideal) .f32 b = Ideal.ofBits .f32 b := rfl

/-- The left copy: the block rotated by one position with position 0 replaced by 0 — the left neighbour,
    0 at the first position. -/
theorem masked_left (lanes : IVec S64x16384 32) (x0 : FVec Ideal S1x64x16384 .f32) (hc : S1x64x16384.ShapeCasts S64x16384)
    (h : S64x16384.Rotates (1 : Fin 2) none) (r : Fin 64) (l : Fin 16384) (hl : lanes (ix2 r l) = BitVec.ofNat 32 l.val) :
    select (cmpi .eq lanes (broadcast S64x16384 0#32)) (broadcast S64x16384 (Scalar.ofBits (F := Ideal) .f32 0x00000000#32))
        (dynamicRotate (1 : Fin 2) 1#32 none (shapeCast S64x16384 x0 hc) h) (ix2 r l)
      = if l.val = 0 then 0 else x0 (ix3 (0 : Fin 1) r (prevLane l)) := by
  show Scalar.select (IntOp.cmpi .eq (lanes (ix2 r l)) 0#32) (Scalar.ofBits (F := Ideal) .f32 0x00000000#32)
    (dynamicRotate (1 : Fin 2) 1#32 none (shapeCast S64x16384 x0 hc) h (ix2 r l)) = _
  rw [hl, rotate_one_apply, shapeCast_1ab_ab_apply x0 hc r (prevLane l), scalar_literal, Ideal.ofBits_zero_f32]
  exact select_lane l.val 0 (by have := l.isLt; omega) (by decide) _ _

/-- The right copy: the block rotated back by one position with position 16383 replaced by 0 — the right
    neighbour, 0 at the last position. -/
theorem masked_right (lanes : IVec S64x16384 32) (x0 : FVec Ideal S1x64x16384 .f32) (hc : S1x64x16384.ShapeCasts S64x16384)
    (h : S64x16384.Rotates (1 : Fin 2) none) (r : Fin 64) (l : Fin 16384) (hl : lanes (ix2 r l) = BitVec.ofNat 32 l.val) :
    select (cmpi .eq lanes (broadcast S64x16384 16383#32)) (broadcast S64x16384 (Scalar.ofBits (F := Ideal) .f32 0x00000000#32))
        (dynamicRotate (1 : Fin 2) 16383#32 none (shapeCast S64x16384 x0 hc) h) (ix2 r l)
      = if l.val = 16383 then 0 else x0 (ix3 (0 : Fin 1) r (nextLane l)) := by
  show Scalar.select (IntOp.cmpi .eq (lanes (ix2 r l)) 16383#32) (Scalar.ofBits (F := Ideal) .f32 0x00000000#32)
    (dynamicRotate (1 : Fin 2) 16383#32 none (shapeCast S64x16384 x0 hc) h (ix2 r l)) = _
  rw [hl, rotate_back_apply, shapeCast_1ab_ab_apply x0 hc r (nextLane l), scalar_literal, Ideal.ofBits_zero_f32]
  exact select_lane l.val 16383 (by have := l.isLt; omega) (by decide) _ _

/-- Tap k of row r, broadcast along the positions. -/
theorem tap_at (w : FVec Ideal S1x64x3 .f32) (hc : S1x64x3.ShapeCasts S64x3) (k : Fin 3) (hs : S64x3.Slices ![0, k.val] S64x1)
    (hb : S64x1.Broadcasts S64x16384) (r : Fin 64) (l : Fin 16384) :
    broadcastTo S64x16384 (extractStridedSlice S64x1 ![0, k.val] (shapeCast S64x3 w hc) hs) hb (ix2 r l)
      = w (ix3 (0 : Fin 1) r k) :=
  (column_broadcast_apply _ hb r l).trans ((tap_column_apply _ k hs r).trans (shapeCast_1ab_ab_apply w hc r k))

/-- THE STORED BLOCK at (r, l): the three taps of row r against the left neighbour, the entry and the right
    neighbour within the row, plus the row's bias. -/
theorem payload_at (x0 : FVec Ideal S1x64x16384 .f32) (w : FVec Ideal S1x64x3 .f32) (bz : FVec Ideal S64x1 .f32)
    (u : Fin 1) (r : Fin 64) (l : Fin 16384) :
    k1_pay1 (F := Ideal) x0 w bz (ix3 u r l)
      = w (ix3 (0 : Fin 1) r (0 : Fin 3)) * (if l.val = 0 then 0 else x0 (ix3 (0 : Fin 1) r (prevLane l)))
        + w (ix3 (0 : Fin 1) r (1 : Fin 3)) * x0 (ix3 (0 : Fin 1) r l)
        + w (ix3 (0 : Fin 1) r (2 : Fin 3)) * (if l.val = 16383 then 0 else x0 (ix3 (0 : Fin 1) r (nextLane l)))
        + bz (ix2 r (0 : Fin 1)) := by
  unfold k1_pay1
  refine (shapeCast_ab_1ab_apply _ shapeCasts_S64x16384_S1x64x16384 u r l).trans ?_
  refine (addf_apply _ _ _).trans (congrArg₂ (· + ·) ?_ ?_)
  · refine (addf_apply _ _ _).trans (congrArg₂ (· + ·) ?_ ?_)
    · refine (addf_apply _ _ _).trans (congrArg₂ (· + ·) ?_ ?_)
      · refine (mulf_apply _ _ _).trans (congrArg₂ (· * ·) ?_ ?_)
        · exact tap_at w shapeCasts_S1x64x3_S64x3 (0 : Fin 3) slices_S64x3_o0_0_S64x1 broadcasts_S64x1_S64x16384 r l
        · exact masked_left _ x0 shapeCasts_S1x64x16384_S64x16384 rotates_S64x16384_d1 r l
            (iota_single_apply .tc S64x16384 32 (1 : Fin 2) iota_S64x16384_d1_w32 (ix2 r l))
      · refine (mulf_apply _ _ _).trans (congrArg₂ (· * ·) ?_ ?_)
        · exact tap_at w shapeCasts_S1x64x3_S64x3 (1 : Fin 3) slices_S64x3_o0_1_S64x1 broadcasts_S64x1_S64x16384 r l
        · exact shapeCast_1ab_ab_apply x0 shapeCasts_S1x64x16384_S64x16384 r l
    · refine (mulf_apply _ _ _).trans (congrArg₂ (· * ·) ?_ ?_)
      · exact tap_at w shapeCasts_S1x64x3_S64x3 (2 : Fin 3) slices_S64x3_o0_2_S64x1 broadcasts_S64x1_S64x16384 r l
      · exact masked_right _ x0 shapeCasts_S1x64x16384_S64x16384 rotates_S64x16384_d1 r l
          (iota_single_apply .tc S64x16384 32 (1 : Fin 2) iota_S64x16384_d1_w32 (ix2 r l))
  · refine (column_broadcast_apply _ broadcasts_S64x1_S64x16384 r l).trans ?_
    rw [shapeCast_self]

/-- The same at any index of the block. -/
theorem payload_apply (x0 : FVec Ideal S1x64x16384 .f32) (w : FVec Ideal S1x64x3 .f32) (bz : FVec Ideal S64x1 .f32)
    (y : S1x64x16384.Idx) :
    k1_pay1 (F := Ideal) x0 w bz y
      = w (ix3 (0 : Fin 1) ⟨(y 1).val, (y 1).isLt⟩ (0 : Fin 3))
          * (if (y 2).val = 0 then 0 else x0 (ix3 (0 : Fin 1) ⟨(y 1).val, (y 1).isLt⟩ (prevLane ⟨(y 2).val, (y 2).isLt⟩)))
        + w (ix3 (0 : Fin 1) ⟨(y 1).val, (y 1).isLt⟩ (1 : Fin 3)) * x0 (ix3 (0 : Fin 1) ⟨(y 1).val, (y 1).isLt⟩ ⟨(y 2).val, (y 2).isLt⟩)
        + w (ix3 (0 : Fin 1) ⟨(y 1).val, (y 1).isLt⟩ (2 : Fin 3))
          * (if (y 2).val = 16383 then 0 else x0 (ix3 (0 : Fin 1) ⟨(y 1).val, (y 1).isLt⟩ (nextLane ⟨(y 2).val, (y 2).isLt⟩)))
        + bz (ix2 ⟨(y 1).val, (y 1).isLt⟩ (0 : Fin 1)) := by
  obtain ⟨u, r, l, rfl⟩ : ∃ (u : Fin 1) (r : Fin 64) (l : Fin 16384), y = ix3 u r l := ⟨y 0, y 1, y 2, eq_ix3 y⟩
  exact payload_at x0 w bz u r l

/-! ## From the points' blocks to the array -/

/-- The filter with the bias given as a column [256, 1]. -/
def convCol (X : SX.Idx → EReal) (W : SW.Idx → EReal) (Bz : SBcol.Idx → EReal) : SX.Idx → EReal :=
  conv X W (fun k => Bz (ix2 (k 0) (0 : Fin 1)))

/-- A point's stored block is a block of the filter: if the three loaded blocks are the input's, the taps' and
    the bias column's entries of sample b and channels 64·d … 64·d + 63, the stored block at (·, r, l) is the
    filter at (b, 64·d + r, l). -/
theorem block_apply (X : SX.Idx → EReal) (W : SW.Idx → EReal) (Bz : SBcol.Idx → EReal)
    (x' : FVec Ideal S1x64x16384 .f32) (w' : FVec Ideal S1x64x3 .f32) (bz' : FVec Ideal S64x1 .f32)
    (b : Fin 8) (d : Nat) (hd : d < 4)
    (hx : ∀ (r : Fin 64) (q : Fin 16384), x' (ix3 (0 : Fin 1) r q) = X (ix3 b ⟨d * 64 + r.val, by have := r.isLt; omega⟩ q))
    (hw : ∀ (r : Fin 64) (k : Fin 3), w' (ix3 (0 : Fin 1) r k) = W (ix3 b ⟨d * 64 + r.val, by have := r.isLt; omega⟩ k))
    (hbz : ∀ r : Fin 64, bz' (ix2 r (0 : Fin 1)) = Bz (ix2 ⟨d * 64 + r.val, by have := r.isLt; omega⟩ (0 : Fin 1)))
    (y : S1x64x16384.Idx) :
    k1_pay1 (F := Ideal) x' w' bz' y
      = convCol X W Bz (ix3 b ⟨d * 64 + (y 1).val, by have h : (y 1).val < 64 := (y 1).isLt; omega⟩ ⟨(y 2).val, (y 2).isLt⟩) := by
  obtain ⟨u, r, l, rfl⟩ : ∃ (u : Fin 1) (r : Fin 64) (l : Fin 16384), y = ix3 u r l := ⟨y 0, y 1, y 2, eq_ix3 y⟩
  rw [payload_at, hx, hx, hx, hw, hw, hw, hbz]
  rfl

variable (V : (c : Dev nD) → (b : Ref sig .tc) → Buf (Elt Ideal) ((c : Thread nD τ).loc b))

theorem offsets3 : (![0, 0, 0] : Fin 3 → Nat) = fun _ => 0 := funext fun a => by fin_cases a <;> rfl
theorem offsets2 : (![0, 0] : Fin 2 → Nat) = fun _ => 0 := funext fun a => by fin_cases a <;> rfl

/-- The four index maps over the 32 grid points: input, taps and output blocks sit at the same sample and
    channel tile, at block 0 of their last axis; the bias column's block is the channel tile's; the sample
    is below 8 and the channel tile below 4. -/
theorem index_facts : ∀ t : Fin cfg1.N,
    win1_0.index t (0 : Fin 3) = win1_3.index t (0 : Fin 3) ∧ win1_0.index t (1 : Fin 3) = win1_3.index t (1 : Fin 3)
    ∧ win1_0.index t (2 : Fin 3) = 0
    ∧ win1_1.index t (0 : Fin 3) = win1_3.index t (0 : Fin 3) ∧ win1_1.index t (1 : Fin 3) = win1_3.index t (1 : Fin 3)
    ∧ win1_1.index t (2 : Fin 3) = 0
    ∧ win1_2.index t (0 : Fin 2) = win1_3.index t (1 : Fin 3) ∧ win1_2.index t (1 : Fin 2) = 0
    ∧ win1_3.index t (2 : Fin 3) = 0 ∧ win1_3.index t (0 : Fin 3) < 8 ∧ win1_3.index t (1 : Fin 3) < 4 :=
  (by decide +kernel : ∀ t : Fin grid1.N, _)

/-- Every (sample, channel tile) is some grid point's output block. -/
theorem index_onto : ∀ (q0 : Fin 8) (q1 : Fin 4), ∃ t : Fin cfg1.N, win1_3.index t = ![q0.val, q1.val, 0] :=
  (by decide +kernel : ∀ (q0 : Fin 8) (q1 : Fin 4), ∃ t : Fin grid1.N, win1_3.index t = ![q0.val, q1.val, 0])

/-- WHAT POINT `t` WRITES BACK is block `t` of the filter of the input, the taps and the bias column as the
    launch finds them. -/
theorem flushed_eq (c : Dev nD) (t : Fin cfg1.N) :
    (dat1 V c).flushed 3 t
      = ((cfg1.win 3).blk t).view.read (Elt Ideal) (convCol (V c main_arg0) (V c main_v21) (V c main_v22)) := by
  show (cfg1.win 3).cut (grid1.coords t) ((dat1 V c).after 3 t) = _
  rw [after1_3]
  unfold out1_3
  rw [View.canon_unit_zero offsets3]
  simp only [View.ld_unit_zero (S := S1x64x16384) offsets3, View.ld_unit_zero (S := S1x64x3) offsets3,
    View.ld_unit_zero (S := S64x1) offsets2]
  obtain ⟨x0, x1, x2, w0, w1, w2, z0, z1, o2, b0, b1⟩ := index_facts t
  funext j
  refine (block_apply (V c main_arg0) (V c main_v21) (V c main_v22) (iblk1 V c 0 t) (iblk1 V c 1 t) (iblk1 V c 2 t)
    ⟨win1_3.index t (0 : Fin 3), b0⟩ (win1_3.index t (1 : Fin 3)) b1 ?_ ?_ ?_ j).trans ?_
  · intro r q
    show V c main_arg0 (((cfg1.win 0).blk t).view.emb (ix3 (0 : Fin 1) r q)) = _
    refine congrArg (V c main_arg0) (funext fun a => Fin.ext ?_)
    match a with
    | ⟨0, _⟩ => show win1_0.index t (0 : Fin 3) * 1 + 1 * 0 = win1_3.index t (0 : Fin 3); omega
    | ⟨1, _⟩ => show win1_0.index t (1 : Fin 3) * 64 + 1 * r.val = win1_3.index t (1 : Fin 3) * 64 + r.val; omega
    | ⟨2, _⟩ => show win1_0.index t (2 : Fin 3) * 16384 + 1 * q.val = q.val; omega
  · intro r k
    show V c main_v21 (((cfg1.win 1).blk t).view.emb (ix3 (0 : Fin 1) r k)) = _
    refine congrArg (V c main_v21) (funext fun a => Fin.ext ?_)
    match a with
    | ⟨0, _⟩ => show win1_1.index t (0 : Fin 3) * 1 + 1 * 0 = win1_3.index t (0 : Fin 3); omega
    | ⟨1, _⟩ => show win1_1.index t (1 : Fin 3) * 64 + 1 * r.val = win1_3.index t (1 : Fin 3) * 64 + r.val; omega
    | ⟨2, _⟩ => show win1_1.index t (2 : Fin 3) * 3 + 1 * k.val = k.val; omega
  · intro r
    show V c main_v22 (((cfg1.win 2).blk t).view.emb (ix2 r (0 : Fin 1))) = _
    refine congrArg (V c main_v22) (funext fun a => Fin.ext ?_)
    match a with
    | ⟨0, _⟩ => show win1_2.index t (0 : Fin 2) * 64 + 1 * r.val = win1_3.index t (1 : Fin 3) * 64 + r.val; omega
    | ⟨1, _⟩ => show win1_2.index t (1 : Fin 2) * 1 + 1 * 0 = 0; omega
  · show convCol (V c main_arg0) (V c main_v21) (V c main_v22) _
      = convCol (V c main_arg0) (V c main_v21) (V c main_v22) (((cfg1.win 3).blk t).view.emb j)
    refine congrArg (convCol (V c main_arg0) (V c main_v21) (V c main_v22)) (funext fun a => Fin.ext ?_)
    match a with
    | ⟨0, _⟩ => show win1_3.index t (0 : Fin 3) = win1_3.index t (0 : Fin 3) * 1 + 1 * (j 0).val; have hj : (j 0).val < 1 := (j 0).isLt; omega
    | ⟨1, _⟩ => show win1_3.index t (1 : Fin 3) * 64 + (j 1).val = win1_3.index t (1 : Fin 3) * 64 + 1 * (j 1).val; omega
    | ⟨2, _⟩ => show (j 2).val = win1_3.index t (2 : Fin 3) * 16384 + 1 * (j 2).val; omega

/-- An index of the output array is in point `t`'s block iff each coordinate is in the block's range. -/
theorem mem_blk (t : Fin cfg1.N) (i : S8x256x16384.Idx) :
    i ∈ ((cfg1.win 3).blk t).view.set ↔ ∀ a : Fin 3, win1_3.index t a * S1x64x16384.size a ≤ (i a).val ∧ (i a).val < win1_3.index t a * S1x64x16384.size a + S1x64x16384.size a := by
  show i ∈ ((View.whole main_v23).slice (win1_3.rect t)).set ↔ _
  rw [View.set_slice_whole, Rect.mem_set_unit]
  exact Iff.rfl

/-- The 32 blocks tile the output: sample b, channel c is in the block of point (b, c / 64). -/
theorem covered (i : S8x256x16384.Idx) :
    ∃ t : Fin cfg1.N, (cfg1.win 3).flush t = true ∧ i ∈ ((cfg1.win 3).blk t).view.set := by
  have hi0 : (i 0).val < 8 := (i 0).isLt
  have hi1 : (i 1).val < 256 := (i 1).isLt
  have hi2 : (i 2).val < 16384 := (i 2).isLt
  obtain ⟨t, ht⟩ := index_onto ⟨(i 0).val, hi0⟩ ⟨(i 1).val / 64, by omega⟩
  have q0 : win1_3.index t (0 : Fin 3) = (i 0).val := congrFun ht 0
  have q1 : win1_3.index t (1 : Fin 3) = (i 1).val / 64 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 64 ≤ (i 1).val ∧ (i 1).val < win1_3.index t (1 : Fin 3) * 64 + 64; omega
  | ⟨2, _⟩ => show win1_3.index t (2 : Fin 3) * 16384 ≤ (i 2).val ∧ (i 2).val < win1_3.index t (2 : Fin 3) * 16384 + 16384; omega

/-- THE OUTPUT ARRAY AFTER THE SECOND LAUNCH: the filter of the input, the taps and the bias column the launch
    was entered with. -/
theorem final (c : Dev nD) :
    (dat1 V c).arrAt 3 cfg1.N = convCol (V c main_arg0) (V c main_v21) (V c main_v22) :=
  (dat1 V c).arrAt_eq_of_cover 3 (convCol (V c main_arg0) (V c main_v21) (V c main_v22)) (fun t _ => flushed_eq V c t) covered

/-- With the bias column a recast bias vector, the filter is the filter of the vector. -/
theorem convCol_of_vector (X : SX.Idx → EReal) (W : SW.Idx → EReal) (B : SB.Idx → EReal) (h : SB.ShapeCasts SBcol) :
    convCol X W (shapeCast SBcol B h) = conv X W B := by
  unfold convCol
  refine congrArg (conv X W) (funext fun k => ?_)
  refine (shapeCast_apply B h (ix2 (k 0) (0 : Fin 1)) k (by
    rw [Shape.rowMajor_val_one, Shape.rowMajor_val_two]
    show (k 0).val = (k 0).val * 1 + 0
    omega))

end Cert.KernelIdeal.ConvValue

end
-- ==== Proof.PoolValue.lean ====
/-
  The first launch: what it leaves in its output array.

  Each grid point (b, d) loads the block of sample b, channels 64·d … 64·d + 63, all 16384 positions;
  sums each row over the positions, divides by the constant 16384 and stores the 64 quotients as a
  column [1, 64, 1]. The 8 × 4 points' columns tile the [8, 256, 1] output, so after the launch the array
  is, at (b, c, 0), the sum of X (b, c, ·) divided by 16384 — `pooledAt` of ConvSpec.lean.

  Stated for ANY contents `V` the launch is entered with: the array it reads is `V`'s copy of the input.
-/
import proofs.«172648_j64656437674380_2_alg».proof.Proof.Gen.KernelIdeal.Frame
import proofs.«172648_j64656437674380_2_alg».proof.Proof.ConvSpec
import Idealize.ShloMosaic.Lib.Pipeline.Value
import Idealize.ShloMosaic.Lib.ValueLayout
import Idealize.ShloMosaic.PureOps.Ideal.Laws

noncomputable section

namespace Cert.KernelIdeal.PoolValue

open Cert.KernelIdeal Cert.KernelIdeal.Gen Idealize.ShloMosaic Idealize.ShloMosaic.TcCoe Idealize.SL.Sem
open Idealize.ShloMosaic.Pipeline (Dat)
open Idealize.ShloMosaic.ValueIdx Cert.DynConv

/-! ## The body's arithmetic at an index -/

/-- A vector [a] recast as a column [a, 1] reads, at (p, z), the vector at p. -/
theorem column_cast_apply {a : ℕ} {α : Type} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) :=
  shapeCast_apply x h _ _ (by
    have hz : z.val = 0 := by omega
    rw [Shape.rowMajor_val_one, Shape.rowMajor_val_two]
    show p.val = p.val * 1 + z.val
    omega)

/-- A scalar float literal, read on the extended reals, is the literal's value. -/
theorem scalar_literal (b : BitVec 32) : Scalar.ofBits (F := Ideal) .f32 b = Ideal.ofBits .f32 b := rfl

/-- The stored column at row r: the row's sum over the 16384 positions, divided by the constant. -/
theorem payload_at (x0 : FVec Ideal S1x64x16384 .f32) (u : Fin 1) (r : Fin 64) (z : Fin 1) :
    k0_pay1 (F := Ideal) x0 (ix3 u r z)
      = Ideal.div (∑ l : Fin 16384, x0 (ix3 (0 : Fin 1) r l)) (Ideal.ofBits .f32 0x46800000#32) := by
  unfold k0_pay1
  refine (shapeCast_ab_1ab_apply _ shapeCasts_S64x1_S1x64x1 u r z).trans ?_
  refine (divf_apply _ _ _).trans ?_
  refine congrArg₂ Ideal.div ?_ (scalar_literal _)
  refine (column_cast_apply _ shapeCasts_S64_S64x1 r z).trans ?_
  refine (Ideal.multiReduction_add_single _ 0x00000000#32 reduces_S64x16384_S64 (.inl rfl) rfl (ix1 r)).trans ?_
  refine Finset.sum_congr rfl fun l _ => ?_
  have e : reduces_S64x16384_S64.lift (ix1 r) l = ix2 r l :=
    funext fun a => Fin.ext (by match a with | ⟨0, _⟩ => rfl | ⟨1, _⟩ => rfl)
  rw [e]
  exact shapeCast_1ab_ab_apply x0 shapeCasts_S1x64x16384_S64x16384 r l

/-- The same at any index of the column. -/
theorem payload_apply (x0 : FVec Ideal S1x64x16384 .f32) (y : S1x64x1.Idx) :
    k0_pay1 (F := Ideal) x0 y
      = Ideal.div (∑ l : Fin 16384, x0 (ix3 (0 : Fin 1) ⟨(y 1).val, (y 1).isLt⟩ l)) (Ideal.ofBits .f32 0x46800000#32) := by
  obtain ⟨u, r, z, rfl⟩ : ∃ (u : Fin 1) (r : Fin 64) (z : Fin 1), y = ix3 u r z := ⟨y 0, y 1, y 2, eq_ix3 y⟩
  exact payload_at x0 u r z

/-! ## From the points' columns to the array -/

variable (V : (c : Dev nD) → (b : Ref sig .tc) → Buf (Elt Ideal) ((c : Thread nD τ).loc b))

/-- The pooled means laid out [8, 256, 1], as the first launch's output array holds them. -/
def pooled3 (X : SX.Idx → EReal) : SP.Idx → EReal := fun i => pooledAt X (i 0) (i 1)

theorem offsets_zero : (![0, 0, 0] : Fin 3 → Nat) = fun _ => 0 := funext fun a => by fin_cases a <;> rfl

/-- The two index maps over the 32 grid points: input and output blocks sit at the same sample and the same
    channel tile, at position block 0; the sample is below 8 and the channel tile below 4. -/
theorem index_facts : ∀ t : Fin cfg0.N, win0_0.index t (0 : Fin 3) = win0_1.index t (0 : Fin 3)
    ∧ win0_0.index t (1 : Fin 3) = win0_1.index t (1 : Fin 3)
    ∧ win0_0.index t (2 : Fin 3) = 0 ∧ win0_1.index t (2 : Fin 3) = 0
    ∧ win0_1.index t (0 : Fin 3) < 8 ∧ win0_1.index t (1 : Fin 3) < 4 :=
  (by decide +kernel : ∀ t : Fin grid0.N, _)

/-- Every (sample, channel tile) is some grid point's output block. -/
theorem index_onto : ∀ (q0 : Fin 8) (q1 : Fin 4), ∃ t : Fin cfg0.N, win0_1.index t = ![q0.val, q1.val, 0] :=
  (by decide +kernel : ∀ (q0 : Fin 8) (q1 : Fin 4), ∃ t : Fin grid0.N, win0_1.index t = ![q0.val, q1.val, 0])

/-- WHAT POINT `t` WRITES BACK is block `t` of the pooled means of the input as the launch finds it. -/
theorem flushed_eq (c : Dev nD) (t : Fin cfg0.N) :
    (dat0 V c).flushed 1 t = ((cfg0.win 1).blk t).view.read (Elt Ideal) (pooled3 (V c main_arg0)) := by
  show (cfg0.win 1).cut (grid0.coords t) ((dat0 V c).after 1 t) = _
  rw [after0_1]
  unfold out0_1
  rw [View.canon_unit_zero offsets_zero]
  simp only [View.ld_unit_zero (S := S1x64x16384) offsets_zero]
  obtain ⟨e0, e1, e2, e3, b0, b1⟩ := index_facts t
  funext j
  refine (payload_apply (iblk0 V c 0 t) j).trans ?_
  show Ideal.div (∑ l : Fin 16384, V c main_arg0 (((cfg0.win 0).blk t).view.emb (ix3 (0 : Fin 1) ⟨(j 1).val, (j 1).isLt⟩ l))) _
    = Ideal.div (∑ l : Fin 16384, V c main_arg0 (ix3 ((((cfg0.win 1).blk t).view.emb j) 0) ((((cfg0.win 1).blk t).view.emb j) 1) l)) _
  refine congrArg₂ Ideal.div (Finset.sum_congr rfl fun l _ => congrArg (V c main_arg0) ?_) rfl
  funext a; apply Fin.ext
  match a with
  | ⟨0, _⟩ => show win0_0.index t (0 : Fin 3) * 1 + 1 * 0 = win0_1.index t (0 : Fin 3) * 1 + 1 * (j 0).val; have hj : (j 0).val < 1 := (j 0).isLt; omega
  | ⟨1, _⟩ => show win0_0.index t (1 : Fin 3) * 64 + 1 * (j 1).val = win0_1.index t (1 : Fin 3) * 64 + 1 * (j 1).val; omega
  | ⟨2, _⟩ => show win0_0.index t (2 : Fin 3) * 16384 + 1 * l.val = l.val; omega

/-- An index of the output array is in point `t`'s block iff each coordinate is in the block's range. -/
theorem mem_blk (t : Fin cfg0.N) (i : S8x256x1.Idx) :
    i ∈ ((cfg0.win 1).blk t).view.set ↔ ∀ a : Fin 3, win0_1.index t a * S1x64x1.size a ≤ (i a).val ∧ (i a).val < win0_1.index t a * S1x64x1.size a + S1x64x1.size a := by
  show i ∈ ((View.whole main_v0).slice (win0_1.rect t)).set ↔ _
  rw [View.set_slice_whole, Rect.mem_set_unit]
  exact Iff.rfl

/-- The 32 columns tile the output: sample b, channel c is in the block of point (b, c / 64). -/
theorem covered (i : S8x256x1.Idx) :
    ∃ t : Fin cfg0.N, (cfg0.win 1).flush t = true ∧ i ∈ ((cfg0.win 1).blk t).view.set := by
  have hi0 : (i 0).val < 8 := (i 0).isLt
  have hi1 : (i 1).val < 256 := (i 1).isLt
  have hi2 : (i 2).val < 1 := (i 2).isLt
  obtain ⟨t, ht⟩ := index_onto ⟨(i 0).val, hi0⟩ ⟨(i 1).val / 64, by omega⟩
  have q0 : win0_1.index t (0 : Fin 3) = (i 0).val := congrFun ht 0
  have q1 : win0_1.index t (1 : Fin 3) = (i 1).val / 64 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 64 ≤ (i 1).val ∧ (i 1).val < win0_1.index t (1 : Fin 3) * 64 + 64; omega
  | ⟨2, _⟩ => show win0_1.index t (2 : Fin 3) * 1 ≤ (i 2).val ∧ (i 2).val < win0_1.index t (2 : Fin 3) * 1 + 1; omega

/-- THE OUTPUT ARRAY AFTER THE FIRST LAUNCH: the pooled means of the input the launch was entered with. -/
theorem final (c : Dev nD) : (dat0 V c).arrAt 1 cfg0.N = pooled3 (V c main_arg0) :=
  (dat0 V c).arrAt_eq_of_cover 1 (pooled3 (V c main_arg0)) (fun t _ => flushed_eq V c t) covered

end Cert.KernelIdeal.PoolValue

end
-- ==== Proof.HostMid.lean ====
/-
  Between the two launches: what the second launch finds in the three arrays it reads.

  * the input — no host operation and no launch writes it: as launched;
  * the bias column — the bias vector recast [256] → [256, 1];
  * the taps — the small network (a product with w1, the normalisation, the clamp at zero, a product with
    w2 plus b2, recast [8, 768] → [8, 256, 3]) applied to the first launch's output recast [8, 256, 1] →
    [8, 256]. The first launch's output is the pooled means (PoolValue.lean), and the reference's own
    pooled means — its sum over the positions from 0, divided by the same constant — are the same matrix
    (0 + s = s); from there on the two programs apply the same operations to the same operands, so the
    taps are the reference's taps `val_main_v22` of the launch arguments.
-/
import proofs.«172648_j64656437674380_2_alg».proof.Proof.Gen.KernelIdeal.Frame
import proofs.«172648_j64656437674380_2_alg».proof.Proof.Gen.ReferenceIdeal.Read
import proofs.«172648_j64656437674380_2_alg».proof.Proof.PoolValue
import Idealize.ShloMosaic.Lib.StableHlo.Run

noncomputable section

namespace Cert.KernelIdeal.HostMid

open Cert.KernelIdeal Cert.KernelIdeal.Gen Idealize.ShloMosaic Idealize.ShloMosaic.TcCoe Idealize.SL.Sem
open Idealize.ShloMosaic.StableHlo
open Idealize.ShloMosaic.ValueIdx Cert.DynConv

/-- The pooled means [8, 256, 1] recast as a matrix are the reference's pooled means: its sum from zero over
    the positions, divided by the constant 16384. -/
theorem pooled_matrix (X : SX.Idx → EReal) (h : S8x256x1.ShapeCasts S8x256) :
    shapeCast S8x256 (PoolValue.pooled3 X) h = Cert.ReferenceIdeal.Read.val_main_v2 (F := Ideal) X := by
  funext i
  obtain ⟨b, c, rfl⟩ : ∃ (b : Fin 8) (c : Fin 256), i = ix2 b c := ⟨i 0, i 1, eq_ix2 i⟩
  refine (shapeCast_apply _ h (ix2 b c) (ix3 b c (0 : Fin 1)) (by
    rw [Shape.rowMajor_val_three, Shape.rowMajor_val_two]
    show (b.val * 256 + c.val) * 1 + 0 = b.val * 256 + c.val
    omega)).trans ?_
  rw [Cert.ReferenceIdeal.Read.val_main_v2_apply, Cert.ReferenceIdeal.Read.val_main_v1_apply,
    Cert.ReferenceIdeal.Read.val_main_cst_0_apply, Cert.ReferenceIdeal.Read.val_main_v0_apply,
    Cert.ReferenceIdeal.Read.val_main_cst_apply]
  show pooledAt X b c = _
  unfold pooledAt
  simp only [Ideal.hostDivf_def, Ideal.ofBits_def, Ideal.ofBits_zero_f32, zero_add]
  refine congrArg₂ Ideal.div (Finset.sum_congr rfl fun k _ => congrArg X ?_) rfl
  exact funext fun a => Fin.ext (by match a with | ⟨0, _⟩ => rfl | ⟨1, _⟩ => rfl | ⟨2, _⟩ => rfl)

variable (m : (ℓ : Loc nD τ sig) → Buf (Elt Ideal) ℓ) (ρ : Dev nD → PrngReg)

/-- The second launch finds the input as launched. -/
theorem input_eq (c : Dev nD) : V4 m ρ c main_arg0 = m ((c.tc : Thread nD τ).loc main_arg0) := by
  have h54 : W5 m ρ c (Proc.devRef .tc main_arg0) = W4 m ρ c (Proc.devRef .tc main_arg0) :=
    (W5_arr m ρ c 0).trans (((dat1 (V4 m ρ) c).arrAt_in 0 rfl _).trans (A_eq1 (V4 m ρ) c 0))
  exact h54.symm.trans (W5_main_arg0 m ρ c)

/-- The first launch's output array, when the host stretch starts: the pooled means of the input. -/
theorem pooled_eq (c : Dev nD) :
    W1 m ρ c (Proc.devRef .tc main_v0) = PoolValue.pooled3 (m ((c.tc : Thread nD τ).loc main_arg0)) :=
  (W1_arr m ρ c 1).trans (PoolValue.final (V0 m ρ) c)

/-- The second launch finds, as its bias column, the bias vector recast as a column. -/
theorem bias_eq (c : Dev nD) :
    V4 m ρ c main_v22 = shapeCast S256x1 (m ((c.tc : Thread nD τ).loc main_arg8)) shapeCasts_S256_S256x1 := by
  show StableHlo.after hostOps1_2 (StableHlo.after hostOps1_1 (StableHlo.after hostOps1 (W1 m ρ c))) (Proc.devRef .tc main_v22) = _
  after_results
  rw [W1_of_ne m ρ c main_arg8 (by decide)]
  rfl

set_option maxHeartbeats 2000000 in
/-- The second launch finds, as its taps, the reference's taps of the launch arguments. -/
theorem taps_eq (c : Dev nD) :
    V4 m ρ c main_v21 = Cert.ReferenceIdeal.Read.val_main_v22 (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  show StableHlo.after hostOps1_2 (StableHlo.after hostOps1_1 (StableHlo.after hostOps1 (W1 m ρ c))) (Proc.devRef .tc main_v21) = _
  after_results_simp
  rw [pooled_eq m ρ c, W1_of_ne m ρ c main_arg1 (by decide), W1_of_ne m ρ c main_arg2 (by decide),
    W1_of_ne m ρ c main_arg3 (by decide), W1_of_ne m ρ c main_arg4 (by decide), W1_of_ne m ρ c main_arg5 (by decide),
    W1_of_ne m ρ c main_arg6 (by decide), W1_of_ne m ρ c main_arg7 (by decide)]
  have hp := pooled_matrix (m ((c.tc : Thread nD τ).loc main_arg0)) shapeCasts_S8x256x1_S8x256
  unfold Cert.ReferenceIdeal.Read.val_main_v22 Cert.ReferenceIdeal.Read.val_main_v21 Cert.ReferenceIdeal.Read.val_main_v18
    Cert.ReferenceIdeal.Read.val_main_v17 Cert.ReferenceIdeal.Read.val_main_v16 Cert.ReferenceIdeal.Read.val_main_v13
    Cert.ReferenceIdeal.Read.val_main_v6 Cert.ReferenceIdeal.Read.val_main_v3
  rw [← hp]
  rfl

end Cert.KernelIdeal.HostMid

end
-- ==== Proof.KernelValue.lean ====
/-
  The kernel program's result as one function of the launch arguments.

  The result buffer ends at the second launch's output array (KernelRun.lean); that array is the three-tap
  filter of what the launch was entered with (ConvValue.lean); and it was entered with the input as
  launched, the reference's taps of the launch arguments, and the bias vector as a column (HostMid.lean).
  So the result is `conv` of the input, of the reference's taps and of the bias.
-/
import proofs.«172648_j64656437674380_2_alg».proof.Proof.KernelRun
import proofs.«172648_j64656437674380_2_alg».proof.Proof.ConvValue
import proofs.«172648_j64656437674380_2_alg».proof.Proof.HostMid

noncomputable section

namespace Cert.KernelIdeal.KernelValue

open Cert.KernelIdeal Cert.KernelIdeal.Gen Idealize.ShloMosaic Idealize.ShloMosaic.TcCoe Idealize.SL.Sem
open Cert.DynConv

variable (m : (ℓ : Loc nD τ sig) → Buf (Elt Ideal) ℓ) (ρ : Dev nD → PrngReg)

/-- The result array of the kernel program, as a function of its nine arguments. -/
def result (c : Dev nD) : SX.Idx → EReal :=
  conv (m ((c.tc : Thread nD τ).loc main_arg0))
    (Cert.ReferenceIdeal.Read.val_main_v22 (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)))
    (m ((c.tc : Thread nD τ).loc main_arg8))

/-- The last segment's contents at the result buffer are that function. -/
theorem result_eq (c : Dev nD) : W5 m ρ c (Proc.devRef .tc main_v23) = result m c := by
  rw [RunValue.result_arr, ConvValue.final (V4 m ρ) c, HostMid.input_eq, HostMid.taps_eq, HostMid.bias_eq]
  exact ConvValue.convCol_of_vector _ _ _ _

/-- THE KERNEL PROGRAM'S RUN: every weakly fair execution terminates without a fault, the result buffer holds
    `result` of the launch arguments, and the arguments end as launched. -/
theorem run : θ_run defs (onTc (τ := τ) (main (F := Ideal))) ⟨m, fun _ => 0, ρ⟩ (fun r => ∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (RunValue.run_result m ρ)

end Cert.KernelIdeal.KernelValue

end
-- ==== Proof.lean ====
/-
  The certificate: the kernel program — a mean-pooling launch, a small network on the host, and a
  three-tap filter launch with the network's output as taps — computes, on the extended reals, the same
  array as the reference.

  Both programs compute, per sample b and channel c,
      out (b, c, l) = w (b, c, 0) · x (b, c, l − 1) + w (b, c, 1) · x (b, c, l) + w (b, c, 2) · x (b, c, l + 1) + bias c,
  the neighbour outside the array counting as 0, where the taps w come from the means of x over the
  positions through the same host operations in both programs. They differ in three places, none of
  which changes a value on the extended reals:
    * the kernel sums a row in a launch and divides by 16384 there; the reference sums from 0 on the host
      and divides by the same constant (0 + s = s);
    * the kernel gets the neighbours by rotating a block that holds all positions of a row and zeroing the
      entry that came around the end; the reference pads the row with a zero on either side and slices;
    * the reference accumulates the three products into a zero array (0 + a = a again).
  No law used needs a finite input, so the precondition is never opened.

  Modules: ConvSpec (the filter and the means, as functions), RefRead (the reference is the filter),
  KernelRun (the kernel program's run with its result named), PoolValue and ConvValue (what each launch
  leaves in its output array), HostMid (what the second launch finds), KernelValue (the kernel program's
  result is the filter). The frames are the generated ones; the idealization rewrote nothing.
-/
import proofs.«172648_j64656437674380_2_alg».proof.Defs
import proofs.«172648_j64656437674380_2_alg».proof.Proof.Gen.Kernel
import proofs.«172648_j64656437674380_2_alg».proof.Proof.Gen.Kernel.Skeleton
import proofs.«172648_j64656437674380_2_alg».proof.Proof.Gen.Kernel.Launch
import proofs.«172648_j64656437674380_2_alg».proof.Proof.Gen.Kernel.Points
import proofs.«172648_j64656437674380_2_alg».proof.Proof.Gen.Kernel.Frame
import proofs.«172648_j64656437674380_2_alg».proof.Proof.Gen.KernelIdeal
import proofs.«172648_j64656437674380_2_alg».proof.Proof.Gen.KernelIdeal.Skeleton
import proofs.«172648_j64656437674380_2_alg».proof.Proof.Gen.KernelIdeal.Launch
import proofs.«172648_j64656437674380_2_alg».proof.Proof.Gen.KernelIdeal.Points
import proofs.«172648_j64656437674380_2_alg».proof.Proof.Gen.KernelIdeal.Frame
import proofs.«172648_j64656437674380_2_alg».proof.Proof.Gen.ReferenceIdeal
import proofs.«172648_j64656437674380_2_alg».proof.Proof.Gen.ReferenceIdeal.Run
import proofs.«172648_j64656437674380_2_alg».proof.Proof.Gen.ReferenceIdeal.Read
import proofs.«172648_j64656437674380_2_alg».proof.Proof.Gen.Pre_finite_inputs
import proofs.«172648_j64656437674380_2_alg».proof.Proof.RefRead
import proofs.«172648_j64656437674380_2_alg».proof.Proof.KernelValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel :=
  fun m ρ _ => Cert.Kernel.Gen.frame m ρ

/-- So does the kernel program read on the extended reals. -/
theorem frame_kernelIdeal : Cert.frame_KernelIdeal :=
  fun m ρ _ => Cert.KernelIdeal.Gen.frame m ρ

/-- And the reference: its run, with the result forgotten. -/
theorem frame_referenceIdeal : Cert.frame_ReferenceIdeal :=
  fun m ρ _ => (θ_run Cert.ReferenceIdeal.defs _ _).mono (fun _ h c => (h c).2)
    (Cert.ReferenceIdeal.Value.run (F := Ideal) m ρ)

/-- Both programs end with the three-tap filter of the input, of the taps the shared network computes from
    the pooled means, and of the bias: the kernel program by its two launches' values, the reference by
    reading its operations at an index; the arguments agree, so the two arrays are one. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v42_eq, Cert.DynConv.Ref.result_eq_conv, h0, h1, h2, h3, h4, h5, h6, h7, h8]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
